-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S1x256 : Shape := ⟨2, ![1, 256]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S1x256 : S_.BroadcastsInDim S1x256 (![] : Fin 0 → Fin S1x256.rank)
  reducesTo_S1x256_S_d0_1 : S1x256.ReducesTo [0, 1] S_

variable [Facts]

def fn {F : FTy → Type} [FloatOps F] (main_arg0 : FVec F S262144x256 .f32) (main_arg1 : FVec F S1x256 .f32) (main_arg2 : FVec F S1x256 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S1x256 .f32 := Host.absf main_arg1
  let main_cst_0 : FVec F S_ .f32 := constant S_ .f32 0x7F800000#32
  let main_v5 : FVec F S1x256 .f32 := broadcastInDim S1x256 ![] bcast_S_S1x256 main_cst_0
  let main_v6 : IVec S1x256 1 := cmpf .olt main_v4 main_v5
  let main_c_1 : IVec S_ 1 := constantI S_ 1 1#1
  let main_v7 : IVec S_ 1 := (fun x v => Host.reduce IntOp.andi x v reducesTo_S1x256_S_d0_1 h_S_) main_v6 main_c_1
  let main_v8 : IVec S_ 1 := andi main_v3 main_v7
  let main_v9 : FVec F S1x256 .f32 := Host.absf main_arg2
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  main_v13
-- ==== Kernel.lean ====
abbrev S262144x256 : Shape := ⟨2, ![262144, 256]⟩
abbrev S1x256 : Shape := ⟨2, ![1, 256]⟩
abbrev S256 : Shape := ⟨1, ![256]⟩
abbrev S256x1 : Shape := ⟨2, ![256, 1]⟩
abbrev S128 : Shape := ⟨1, ![128]⟩
abbrev S1x128 : Shape := ⟨2, ![1, 128]⟩
abbrev S_ : Shape := ⟨0, ![]⟩
abbrev S256x128 : Shape := ⟨2, ![256, 128]⟩
abbrev S262144x128 : Shape := ⟨2, ![262144, 128]⟩
abbrev S8192x256 : Shape := ⟨2, ![8192, 256]⟩
abbrev S8192x128 : Shape := ⟨2, ![8192, 128]⟩
abbrev S2048x256 : Shape := ⟨2, ![2048, 256]⟩
abbrev S2048x128 : Shape := ⟨2, ![2048, 128]⟩

abbrev nBuf : Space → Nat
  | .hbm => 30
  | .vmem => 7
  | .smem => 0
  | _ => 0

abbrev bufTy : (tb : Table) → Fin (tcTables nBuf tb) → BufTy
  | .hbm, ⟨0, _⟩ => ⟨S262144x256, .f32⟩
  | .hbm, ⟨1, _⟩ => ⟨S1x256, .f32⟩
  | .hbm, ⟨2, _⟩ => ⟨S1x256, .f32⟩
  | .hbm, ⟨3, _⟩ => ⟨S256, .i32⟩
  | .hbm, ⟨4, _⟩ => ⟨S256x1, .i32⟩
  | .hbm, ⟨5, _⟩ => ⟨S128, .i32⟩
  | .hbm, ⟨6, _⟩ => ⟨S1x128, .i32⟩
  | .hbm, ⟨7, _⟩ => ⟨S_, .i32⟩
  | .hbm, ⟨8, _⟩ => ⟨S_, .i32⟩
  | .hbm, ⟨9, _⟩ => ⟨S256x1, .i32⟩
  | .hbm, ⟨10, _⟩ => ⟨S256x1, .i32⟩
  | .hbm, ⟨11, _⟩ => ⟨S256x1, .i32⟩
  | .hbm, ⟨12, _⟩ => ⟨S_, .i32⟩
  | .hbm, ⟨13, _⟩ => ⟨S256x1, .i32⟩
  | .hbm, ⟨14, _⟩ => ⟨S256x1, .i1⟩
  | .hbm, ⟨15, _⟩ => ⟨S256x1, .i32⟩
  | .hbm, ⟨16, _⟩ => ⟨S256x1, .i32⟩
  | .hbm, ⟨17, _⟩ => ⟨S_, .i32⟩
  | .hbm, ⟨18, _⟩ => ⟨S256x1, .i32⟩
  | .hbm, ⟨19, _⟩ => ⟨S256x1, .i1⟩
  | .hbm, ⟨20, _⟩ => ⟨S256x1, .i1⟩
  | .hbm, ⟨21, _⟩ => ⟨S_, .i32⟩
  | .hbm, ⟨22, _⟩ => ⟨S256x1, .i32⟩
  | .hbm, ⟨23, _⟩ => ⟨S256x1, .i32⟩
  | .hbm, ⟨24, _⟩ => ⟨S256x1, .i32⟩
  | .hbm, ⟨25, _⟩ => ⟨S256x128, .i32⟩
  | .hbm, ⟨26, _⟩ => ⟨S256x128, .i32⟩
  | .hbm, ⟨27, _⟩ => ⟨S256x128, .i1⟩
  | .hbm, ⟨28, _⟩ => ⟨S256x128, .bf16⟩
  | .hbm, ⟨29, _⟩ => ⟨S262144x128, .f32⟩
  | .local _ .vmem, ⟨0, _⟩ => ⟨S8192x256, .f32⟩
  | .local _ .vmem, ⟨1, _⟩ => ⟨S8192x256, .f32⟩
  | .local _ .vmem, ⟨2, _⟩ => ⟨S1x256, .f32⟩
  | .local _ .vmem, ⟨3, _⟩ => ⟨S1x256, .f32⟩
  | .local _ .vmem, ⟨4, _⟩ => ⟨S256x128, .bf16⟩
  | .local _ .vmem, ⟨5, _⟩ => ⟨S8192x128, .f32⟩
  | .local _ .vmem, ⟨6, _⟩ => ⟨S8192x128, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c2048_i32 : BitVec 32 := 2048#32
  let v4 : BitVec 32 := Scalar.muli c0_i32 c2048_i32
  v4
def k0_off1 (c0_i32 : BitVec 32) : Fin 2 → Nat :=
  let c2048_i32 : BitVec 32 := 2048#32
  let v4 : BitVec 32 := Scalar.muli c0_i32 c2048_i32
  let v5 : BitVec 32 := v4
  let v6 : Index := Scalar.indexCast v5
  let c0_5 : Index := 0#32
  ![v6.toNat, 0]
def k0_off2 (c0_i32 : BitVec 32) : Fin 2 → Nat :=
  let c2048_i32 : BitVec 32 := 2048#32
  let v4 : BitVec 32 := Scalar.muli c0_i32 c2048_i32
  let v5 : BitVec 32 := v4
  let v20 : Index := Scalar.indexCast v5
  let c0_8 : Index := 0#32
  ![v20.toNat, 0]
def k0_mult2 : BitVec 32 :=
  let c1_i32 : BitVec 32 := 1#32
  let c2048_i32_9 : BitVec 32 := 2048#32
  let v22 : BitVec 32 := Scalar.muli c1_i32 c2048_i32_9
  v22
def k0_mult3 : BitVec 32 :=
  let c2_i32 : BitVec 32 := 2#32
  let c2048_i32_15 : BitVec 32 := 2048#32
  let v40 : BitVec 32 := Scalar.muli c2_i32 c2048_i32_15
  v40
def k0_mult4 : BitVec 32 :=
  let c3_i32 : BitVec 32 := 3#32
  let c2048_i32_21 : BitVec 32 := 2048#32
  let v58 : BitVec 32 := Scalar.muli c3_i32 c2048_i32_21
  v58
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S256_S256x1_0 : S256.BroadcastsInDim S256x1 (![0] : Fin 1 → Fin S256x1.rank)
  bcast_S128_S1x128_1 : S128.BroadcastsInDim S1x128 (![1] : Fin 1 → Fin S1x128.rank)
  bcast_S_S256x1 : S_.BroadcastsInDim S256x1 (![] : Fin 0 → Fin S256x1.rank)
  bcast_S256x1_S256x128_0_1 : S256x1.BroadcastsInDim S256x128 (![0, 1] : Fin 2 → Fin S256x128.rank)
  bcast_S1x128_S256x128_0_1 : S1x128.BroadcastsInDim S256x128 (![0, 1] : Fin 2 → Fin S256x128.rank)
  inb_S1x256_S1x256_0_0 : ∀ a, (![0, 0] : Fin 2 → Nat) a + S1x256.size a ≤ S1x256.size a
  h_S1x256 : 0 < S1x256.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  h_S2048x256 : 0 < S2048x256.numel
  broadcasts_S1x256_S2048x256 : S1x256.Broadcasts S2048x256
  bitsLt_bf16_f32 : FTy.bits .bf16 < FTy.bits .f32
  h_S2048x128 : 0 < S2048x128.numel
  dot_S2048x256_S256x128_S2048x128_1_0_0_1_n_n_wf : DotDims.WF S2048x256 S256x128 S2048x128 [1] [0] [0] [1] [] []
  hrank0 : 0 < grid0.rank
  k0_mult1_dvd : 2048 ∣ k0_mult1.toNat
  k0_off1_inb : ∀ (r : Fin 4), ∀ a, (k0_off1 (BitVec.ofNat 32 r.val)) a + S2048x256.size a ≤ S8192x256.size a
  k0_off2_inb : ∀ (r : Fin 4), ∀ a, (k0_off2 (BitVec.ofNat 32 r.val)) a + S2048x128.size a ≤ S8192x128.size a
  k0_mult2_dvd : 2048 ∣ k0_mult2.toNat
  k0_mult3_dvd : 2048 ∣ k0_mult3.toNat
  k0_mult4_dvd : 2048 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S262144x256.size a
  hwx0_0 : ∀ i : grid0.Coords, EltTy.bits .f32 = 32 ∨ (Rect.block (s := S262144x256) S8192x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .bf16 = 32 ∨ (Rect.block (s := S256x128) S256x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192x128.size a ≤ S262144x128.size a
  hwx0_4 : ∀ i : grid0.Coords, EltTy.bits .f32 = 32 ∨ (Rect.block (s := S262144x128) S8192x128.size (cc0_transform_4 i) (hinb0_4 i)).WholeWords (EltTy.packing .f32)

variable [Facts₀]

def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf

abbrev win0_0 : Pipeline.Window sig grid0 :=
  Pipeline.Window.ofSpec (Memref.whole main_arg0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S8192x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S262144x256 : Shape := ⟨2, ![262144, 256]⟩
abbrev S1x256 : Shape := ⟨2, ![1, 256]⟩
abbrev S_ : Shape := ⟨0, ![]⟩
abbrev S262144x128x2 : Shape := ⟨3, ![262144, 128, 2]⟩
abbrev S262144x128 : Shape := ⟨2, ![262144, 128]⟩

abbrev nBuf : Space → Nat
  | .hbm => 19
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S1x256, .f32⟩
  | .hbm, ⟨2, _⟩ => ⟨S1x256, .f32⟩
  | .hbm, ⟨3, _⟩ => ⟨S262144x256, .f32⟩
  | .hbm, ⟨4, _⟩ => ⟨S262144x256, .f32⟩
  | .hbm, ⟨5, _⟩ => ⟨S_, .f32⟩
  | .hbm, ⟨6, _⟩ => ⟨S_, .f32⟩
  | .hbm, ⟨7, _⟩ => ⟨S262144x256, .f32⟩
  | .hbm, ⟨8, _⟩ => ⟨S262144x256, .i1⟩
  | .hbm, ⟨9, _⟩ => ⟨S_, .f32⟩
  | .hbm, ⟨10, _⟩ => ⟨S262144x256, .f32⟩
  | .hbm, ⟨11, _⟩ => ⟨S262144x256, .f32⟩
  | .hbm, ⟨12, _⟩ => ⟨S262144x256, .f32⟩
  | .hbm, ⟨13, _⟩ => ⟨S262144x256, .f32⟩
  | .hbm, ⟨14, _⟩ => ⟨S262144x256, .f32⟩
  | .hbm, ⟨15, _⟩ => ⟨S262144x256, .f32⟩
  | .hbm, ⟨16, _⟩ => ⟨S262144x128x2, .f32⟩
  | .hbm, ⟨17, _⟩ => ⟨S_, .f32⟩
  | .hbm, ⟨18, _⟩ => ⟨S262144x128, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩

abbrev nD : Nat := 1
abbrev τ : Topo := Topo.v7x

variable {F : FTy → Type} [FloatOps F]

class Facts₀ : Prop where
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  shapeCasts_S262144x256_S262144x128x2 : S262144x256.ShapeCasts S262144x128x2
  reducesTo_S262144x128x2_S262144x128_d2 : S262144x128x2.ReducesTo [2] S262144x128
  h_S_ : 0 < S_.numel

variable [Facts₀]

class Facts : Prop extends Facts₀ where

variable [Facts]
-- ==== Proof.PairedRows.lean ====
/-
  The function both programs compute.

  For an input x of 262144 rows and 256 columns and two rows k and c of 256 entries, entry (r, i) is the leaky
  rectifier of x(r,i) * k(i) — the product itself where it is at least zero, the product times the slope elsewhere —
  plus x(r,i) * c(i).  The result has 128 columns: column q of row r is entry (r, 2q) plus entry (r, 2q+1).  The zero
  the rectifier compares with and its slope are kept as the binary words both programs print; the same word on both
  sides is never evaluated.
-/
import Idealize.ShloMosaic.PureOps.Ideal.Laws
import Idealize.ShloMosaic.Lib.ValueIdx

noncomputable section

namespace Cert.PairedRows

open Idealize.ShloMosaic Idealize.ShloMosaic.ValueIdx

/-- The leaky rectifier: z where z is at least the zero word's value, z times the slope word's value elsewhere. -/
def lrelu (z : Ideal .f32) : Ideal .f32 :=
  Scalar.select (Ideal.cmp .oge z (Ideal.ofBits .f32 0x00000000#32)) z (z * Ideal.ofBits .f32 0x3C23D70A#32)

/-- Entry (r, i) of a block of rows: rectified x * k, plus x * c. -/
def entry {R : Nat} (x : FVec Ideal ⟨2, ![R, 256]⟩ .f32) (k c : FVec Ideal ⟨2, ![1, 256]⟩ .f32) (r : Fin R) (i : Fin 256) :
    Ideal .f32 :=
  lrelu (x (ix2 r i) * k (ix2 (0 : Fin 1) i)) + x (ix2 r i) * c (ix2 (0 : Fin 1) i)

/-- Column q of row r of the result: the two entries of pair q. -/
def pairAt {R : Nat} (x : FVec Ideal ⟨2, ![R, 256]⟩ .f32) (k c : FVec Ideal ⟨2, ![1, 256]⟩ .f32) (r : Fin R) (q : Fin 128) :
    Ideal .f32 :=
  entry x k c r ⟨2 * q.val, by omega⟩ + entry x k c r ⟨2 * q.val + 1, by omega⟩

/-- The whole result, index by index. -/
def G (x : FVec Ideal ⟨2, ![262144, 256]⟩ .f32) (k c : FVec Ideal ⟨2, ![1, 256]⟩ .f32) :
    FVec Ideal ⟨2, ![262144, 128]⟩ .f32 :=
  fun j => pairAt x k c (j 0) (j 1)

theorem G_ix2 (x : FVec Ideal ⟨2, ![262144, 256]⟩ .f32) (k c : FVec Ideal ⟨2, ![1, 256]⟩ .f32)
    (r : Fin 262144) (q : Fin 128) : G x k c (ix2 r q) = pairAt x k c r q := rfl

end Cert.PairedRows

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.ChunkValue.lean ====
/-
  One chunk of 2048 rows, read at an index.

  The body handles a block of 8192 rows in four chunks of 2048 with the same arithmetic: the chunk's rows times the
  gain row, the leaky rectifier, plus the rows times the second row, then the matrix product of the resulting
  [2048, 256] values with the [256, 128] weights into a zero accumulator.  A change of float format is the identity
  on the extended reals, so at (r, q) the chunk's result is the sum over the 256 columns i of entry (r, i) times
  weight (i, q).  The first two chunks take the weights through a shape cast to their own shape, which is the
  identity.
-/
import proofs.«127237_j489626271944_2_alg».proof.Proof.Gen.KernelIdeal.Skeleton
import proofs.«127237_j489626271944_2_alg».proof.Proof.PairedRows
import proofs.«127237_j489626271944_2_alg».proof.Proof.LibRowOps
import Idealize.ShloMosaic.Lib.ValueLayout
import Idealize.ShloMosaic.Lib.Pipeline.Value

noncomputable section

namespace Cert.KernelIdeal.Chunk

open Cert.KernelIdeal Cert.KernelIdeal.Gen Idealize.ShloMosaic Idealize.ShloMosaic.ValueIdx Cert.PairedRows

/-- The body's matrix product contracts the values' columns with the weights' rows. -/
theorem plain : Cert.RowOps.IsPlain dot_S2048x256_S256x128_S2048x128_1_0_0_1_n_n := ⟨rfl, rfl, rfl, rfl, rfl, rfl⟩

/-- The pointwise operations of a chunk, at one index; the change of float format is the identity. -/
theorem pointwise_apply (x bk bc : FVec Ideal S2048x256 .f32) (z s : Ideal .f32) (j : S2048x256.Idx) :
    (truncf .bf16
      (addf (select (cmpf .oge (mulf x bk) (broadcast S2048x256 z)) (mulf x bk) (mulf (mulf x bk) (broadcast S2048x256 s)))
        (mulf x bc))
      bitsLt_bf16_f32 : FVec Ideal S2048x256 .bf16) j
      = Scalar.select (Ideal.cmp .oge (x j * bk j) z) (x j * bk j) (x j * bk j * s) + x j * bc j := rfl

/-- The values a chunk multiplies by the weights, at (r, i): entry (r, i) of the chunk's rows. -/
theorem values_apply (k c : Vec Ideal S1x256 .f32) (x : Vec Ideal S2048x256 .f32) (r : Fin 2048) (i : Fin 256) :
    (truncf .bf16
      (addf
        (select
          (cmpf .oge (mulf x (broadcastTo S2048x256 k broadcasts_S1x256_S2048x256))
            (broadcast S2048x256 (Scalar.ofBits (F := Ideal) .f32 0x00000000#32)))
          (mulf x (broadcastTo S2048x256 k broadcasts_S1x256_S2048x256))
          (mulf (mulf x (broadcastTo S2048x256 k broadcasts_S1x256_S2048x256))
            (broadcast S2048x256 (Scalar.ofBits (F := Ideal) .f32 0x3C23D70A#32))))
        (mulf x (broadcastTo S2048x256 c broadcasts_S1x256_S2048x256)))
      bitsLt_bf16_f32 : FVec Ideal S2048x256 .bf16) (ix2 r i)
    = entry x k c r i := by
  rw [pointwise_apply, broadcastTo_1b_ab_apply k broadcasts_S1x256_S2048x256 r i,
    broadcastTo_1b_ab_apply c broadcasts_S1x256_S2048x256 r i]
  rfl

/-- A chunk's result at (r, q): the entries of row r against column q of the weights. -/
theorem pay1_apply (k c : Vec Ideal S1x256 .f32) (w : FVec Ideal S256x128 .bf16) (x : Vec Ideal S2048x256 .f32)
    (r : Fin 2048) (q : Fin 128) :
    k0_pay1 k c w x (ix2 r q) = ∑ i : Fin 256, entry x k c r i * w (ix2 i q) := by
  unfold k0_pay1
  refine (Cert.RowOps.matmul_zero_apply plain none _ w r q).trans ?_
  exact Finset.sum_congr rfl fun i _ => congrArg (· * w (ix2 i q)) (values_apply k c x r i)

/-- The four chunks' payloads are one function: the third and fourth by their text, the first and second after the
    identity shape cast of the weights. -/
theorem pay2_eq (k c : Vec Ideal S1x256 .f32) (w : FVec Ideal S256x128 .bf16) (x : Vec Ideal S2048x256 .f32) :
    k0_pay2 k c w x = k0_pay1 k c w x := rfl

theorem pay3_eq (w : Vec Ideal S256x128 .bf16) : k0_pay3 w = w :=
  shapeCast_self w shapeCasts_S256x128_S256x128

theorem pay4_eq (k c : Vec Ideal S1x256 .f32) (w : Vec Ideal S256x128 .bf16) (x : Vec Ideal S2048x256 .f32) :
    k0_pay4 k c w x = k0_pay1 k c w x :=
  (show k0_pay4 k c w x = k0_pay1 k c (k0_pay3 w) x from rfl).trans (by rw [pay3_eq])

theorem pay5_eq (k c : Vec Ideal S1x256 .f32) (w : Vec Ideal S256x128 .bf16) (x : Vec Ideal S2048x256 .f32) :
    k0_pay5 k c w x = k0_pay1 k c w x :=
  (show k0_pay5 k c w x = k0_pay1 k c (k0_pay3 w) x from rfl).trans (by rw [pay3_eq])

end Cert.KernelIdeal.Chunk

end
-- ==== Proof.BlockValue.lean ====
/-
  What one grid point leaves in the output block.

  The body writes the [8192, 128] output block as four pieces of 2048 rows, at row offsets 0, 2048, 4096 and 6144;
  the piece at offset o is the chunk arithmetic of rows o … o + 2047 of the input block.  So every piece is the
  restriction of ONE function of the block index — at (a, q), the sum over the 256 columns i of entry (a, i) of the
  input block times weight (i, q) — and since the four pieces tile the block, the block reads back as that function.
-/
import proofs.«127237_j489626271944_2_alg».proof.Proof.Gen.KernelIdeal.Frame
import proofs.«127237_j489626271944_2_alg».proof.Proof.ChunkValue
import Idealize.ShloMosaic.Lib.Pipeline.Value

set_option maxRecDepth 16384

noncomputable section

namespace Cert.KernelIdeal.Block

open Cert.KernelIdeal Cert.KernelIdeal.Gen Idealize.ShloMosaic Idealize.ShloMosaic.TcCoe Idealize.ShloMosaic.ValueIdx
open Idealize.ShloMosaic.Tactic Cert.PairedRows

/-- The block function: row a, column q is the entries of row a of the input block against column q of the weights. -/
def blockFn (x : Vec Ideal S8192x256 .f32) (k c : Vec Ideal S1x256 .f32) (w : Vec Ideal S256x128 .bf16) :
    Vec Ideal S8192x128 .f32 :=
  fun y => ∑ i : Fin 256, entry x k c (y 0) i * w (ix2 i (y 1))

theorem hz : (![0, 0] : Fin 2 → Nat) = fun _ => 0 := funext fun a => by fin_cases a <;> rfl

/-- The index a rectangle of a rows from row o, all B columns, reads at (r, q): row o + r, column q. -/
theorem idx_rows {A B a : Nat} (o : Nat)
    (inb : ∀ d, (![o, 0] : Fin 2 → Nat) d + (![a, B] : Fin 2 → Nat) d ≤ (⟨2, ![A, B]⟩ : Shape).size d)
    (r : Fin a) (q : Fin B) (h : o + r.val < A) :
    (Rect.unit (s := ⟨2, ![A, B]⟩) ![o, 0] ![a, B] inb).idx (ix2 r q) = ix2 (⟨o + r.val, h⟩ : Fin A) q :=
  funext fun d => Fin.ext (by
    match d with
    | ⟨0, _⟩ => show o + 1 * r.val = o + r.val; omega
    | ⟨1, _⟩ => show 0 + 1 * q.val = q.val; omega)

/-- The chunk arithmetic of the rows from o is the block function on those rows. -/
theorem piece_apply (x : Vec Ideal S8192x256 .f32) (k c : Vec Ideal S1x256 .f32) (w : Vec Ideal S256x128 .bf16)
    (o : Nat) (ho : o + 2048 ≤ 8192) (xs : Vec Ideal S2048x256 .f32)
    (hxs : ∀ (r : Fin 2048) (i : Fin 256), xs (ix2 r i) = x (ix2 (⟨o + r.val, by omega⟩ : Fin 8192) i))
    (r : Fin 2048) (q : Fin 128) :
    k0_pay1 k c w xs (ix2 r q) = blockFn x k c w (ix2 (⟨o + r.val, by omega⟩ : Fin 8192) q) := by
  rw [Chunk.pay1_apply]
  refine Finset.sum_congr rfl fun i _ => congrArg (· * w (ix2 i q)) ?_
  unfold entry
  rw [hxs r i]

/-- One piece: the chunk arithmetic of the rows from o, stored at rows from o, agrees with the block function there. -/
theorem piece_ok (x0 : Vec Ideal S8192x256 .f32) (x1 x2 : Vec Ideal S1x256 .f32) (x3 : Vec Ideal S256x128 .bf16)
    (o : Nat) (ho : o + 2048 ≤ 8192)
    (inbO : ∀ d, (![o, 0] : Fin 2 → Nat) d + (![2048, 128] : Fin 2 → Nat) d ≤ S8192x128.size d)
    (inbI : ∀ d, (![o, 0] : Fin 2 → Nat) d + (![2048, 256] : Fin 2 → Nat) d ≤ S8192x256.size d)
    (x : (Rect.unit (s := S8192x128) ![o, 0] ![2048, 128] inbO).shape.Idx) :
    k0_pay1 x1 x2 x3 (View.ld x0 (Rect.unit (s := S8192x256) ![o, 0] ![2048, 256] inbI)) x
      = blockFn x0 x1 x2 x3 ((Rect.unit (s := S8192x128) ![o, 0] ![2048, 128] inbO).emb x) := by
  obtain ⟨r, q, rfl⟩ : ∃ (r : Fin 2048) (q : Fin 128), x = ix2 r q := ⟨x 0, x 1, eq_ix2 x⟩
  have hr := r.isLt
  rw [show (Rect.unit (s := S8192x128) ![o, 0] ![2048, 128] inbO).emb (ix2 r q) = ix2 (⟨o + r.val, by omega⟩ : Fin 8192) q
    from idx_rows o inbO r q (by omega)]
  exact piece_apply x0 x1 x2 x3 o ho _
    (fun r' i => congrArg x0 (idx_rows o inbI r' i (by have := r'.isLt; omega))) r q

/-- The output block after the body, on the extended reals: the block function of the four input blocks. -/
theorem out_eq (c : Dev nD) (i : grid0.Coords) (arg1 : Memref sig .tc .vmem S8192x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x128 .bf16) (harg4 : arg4.IsWhole) (arg5 : Memref sig .tc .vmem S8192x128 .f32) (harg5 : arg5.IsWhole)
    (x0 : Vec Ideal S8192x256 .f32) (x1 : Vec Ideal S1x256 .f32) (x2 : Vec Ideal S1x256 .f32) (x3 : Vec Ideal S256x128 .bf16) :
    out0_A_4 c i arg1 harg1 arg2 harg2 arg3 harg3 arg4 harg4 arg5 harg5 x0 x1 x2 x3 = blockFn x0 x1 x2 x3 := by
  funext y
  unfold out0_A_4
  rw [View.read_writes_eq_canon _ _ _ (cover0_A_4 c i arg1 harg1 arg2 harg2 arg3 harg3 arg4 harg4 arg5 harg5 x0 x1 x2 x3)]
  refine View.canon_apply_of_pieces (blockFn x0 x1 x2 x3) _ ?_ y
    (cover0_A_4 c i arg1 harg1 arg2 harg2 arg3 harg3 arg4 harg4 arg5 harg5 x0 x1 x2 x3 y)
  unfold kernelRun0_A
  dsimp only
  sl_unfold_words
  simp only [View.readAt_eq_ld, harg1.read_unread, harg2.read_unread, harg3.read_unread, harg4.read_unread,
    View.ld_unit_zero (S := S1x256) hz, View.ld_unit_zero (S := S256x128) hz]
  rw [Chunk.pay2_eq, Chunk.pay4_eq, Chunk.pay5_eq, Chunk.pay3_eq]
  intro p hp x
  simp only [List.mem_cons, List.mem_nil_iff, or_false] at hp
  rcases hp with rfl | rfl | rfl | rfl
  · exact piece_ok x0 x1 x2 x3 6144 (by omega) (by decide) (by decide) x
  · exact piece_ok x0 x1 x2 x3 4096 (by omega) (by decide) (by decide) x
  · exact piece_ok x0 x1 x2 x3 2048 (by omega) (by decide) (by decide) x
  · exact piece_ok x0 x1 x2 x3 0 (by omega) (by decide) (by decide) x

end Cert.KernelIdeal.Block

end
-- ==== Proof.FloorHalf.lean ====
/-
  Halving the way the host spells it, on 32-bit words.

  Floor division of x by 2 is computed as the quotient rounded toward zero, lowered by one when the operands' signs
  differ and the remainder is not zero.  For the words of 0, 1, …, 255 the correction never applies — the signs differ
  only at x = 0, where the remainder is zero — and the quotient toward zero of a word that is not negative is the
  number's half: checked word by word.  Two words of numbers below 2^32 are equal exactly when the numbers are, and a
  one-bit word read as an unsigned number is 1 or 0.
-/
import Idealize.ShloMosaic.PureOps.Ideal.Laws

noncomputable section

namespace Cert.FloorHalf

open Idealize.ShloMosaic

/-- The sign of a word: 0, -1 or 1. -/
def sgn (x : BitVec 32) : BitVec 32 := if x = 0 then 0 else if x.msb then -1 else 1

/-- Floor division by the word t as the host spells it, with the constants it compares with and subtracts. -/
def floorDiv (x t st z o : BitVec 32) : BitVec 32 :=
  Scalar.select
    (IntOp.andi (IntOp.cmpi .ne (sgn x) st) (IntOp.cmpi .ne (IntOp.remsi .host x t) z))
    (IntOp.subi (IntOp.divsi .host x t) o)
    (IntOp.divsi .host x t)

/-- On the words of 0 … 255, floor division by two is the word of the number's half. -/
theorem floorDiv_two : ∀ i : Fin 256,
    floorDiv (BitVec.ofNat 32 i.val) 2#32 (sgn 2#32) 0#32 1#32 = BitVec.ofNat 32 (i.val / 2) := by
  decide +kernel

/-- Words of numbers below 2^32 compare equal exactly when the numbers are equal. -/
theorem cmpi_eq_ofNat (a b : Nat) (ha : a < 4294967296) (hb : b < 4294967296) :
    IntOp.cmpi .eq (BitVec.ofNat 32 a) (BitVec.ofNat 32 b) = if a = b then 1#1 else 0#1 := by
  show BitVec.ofBool (BitVec.ofNat 32 a == BitVec.ofNat 32 b) = _
  by_cases h : a = b
  · subst h
    rw [if_pos rfl, beq_self_eq_true]
    rfl
  · have hne : BitVec.ofNat 32 a ≠ BitVec.ofNat 32 b := fun e => h (by
      have := congrArg BitVec.toNat e
      simp only [BitVec.toNat_ofNat] at this
      omega)
    rw [if_neg h, beq_eq_false_iff_ne.mpr hne]
    rfl

/-- A one-bit word as a float on the extended reals: 1 for the set bit, 0 for the clear one. -/
theorem uitofp_bit (p : Prop) [Decidable p] :
    FloatOps.uitofp (F := Ideal) .bf16 (if p then 1#1 else 0#1) = if p then (1 : EReal) else 0 := by
  show (((if p then 1#1 else 0#1 : BitVec 1).toNat : ℝ) : EReal) = _
  split <;> simp

end Cert.FloorHalf

end
-- ==== Proof.PairWeights.lean ====
/-
  The weights the kernel's program builds before the launch.

  Host operations fill a [256, 128] array: row numbers 0 … 255 as a column, floor-divided by two; column numbers
  0 … 127 as a row; the two compared for equality entry by entry; the one-bit results converted to floats.  On the
  extended reals the entry at (i, q) is therefore 1 when i halves to q and 0 otherwise.  The floor division is a
  function of the module (quotient toward zero, corrected when signs differ and the remainder is not zero); its
  operations run on the call's own buffers, so the array the launch finds is one composed term.
-/
import proofs.«127237_j489626271944_2_alg».proof.Proof.Gen.KernelIdeal.Frame
import proofs.«127237_j489626271944_2_alg».proof.Proof.FloorHalf
import Idealize.ShloMosaic.Lib.StableHlo.Run
import Idealize.ShloMosaic.Lib.IdealHost
import Idealize.ShloMosaic.Lib.Pipeline.Value

noncomputable section

namespace Cert.KernelIdeal.Weights

open Cert.KernelIdeal Cert.KernelIdeal.Gen Idealize.ShloMosaic Idealize.ShloMosaic.TcCoe Idealize.SL.Sem
open Idealize.ShloMosaic.StableHlo Idealize.ShloMosaic.ValueIdx Cert.FloorHalf

/-- Floor division as the host spells it, on a column, over the constants' columns. -/
def halvesOf (x t st z o : IVec S256x1 32) : IVec S256x1 32 :=
  select (andi (cmpi .ne (signi x) st) (cmpi .ne (Host.remsi x t) z)) (subi (Host.divsi x t) o) (Host.divsi x t)

theorem halvesOf_apply (x t st z o : IVec S256x1 32) (j : S256x1.Idx) :
    halvesOf x t st z o j = floorDiv (x j) (t j) (st j) (z j) (o j) := rfl

/-- The row numbers as a column. -/
def rowIds : IVec S256x1 32 := broadcastInDim S256x1 ![0] bcast_S256_S256x1_0 (iotaInDim S256 32 0)

/-- The divisor. -/
def two : IVec S_ 32 := constantI S_ 32 2#32

/-- The row numbers floor-divided by two. -/
def halves : IVec S256x1 32 :=
  halvesOf rowIds (broadcastInDim S256x1 ![] bcast_S_S256x1 two) (broadcastInDim S256x1 ![] bcast_S_S256x1 (signi two))
    (broadcastInDim S256x1 ![] bcast_S_S256x1 (constantI S_ 32 0#32))
    (broadcastInDim S256x1 ![] bcast_S_S256x1 (constantI S_ 32 1#32))

/-- The column numbers laid along every row. -/
def colIds : IVec S256x128 32 :=
  broadcastInDim S256x128 ![0, 1] bcast_S1x128_S256x128_0_1 (broadcastInDim S1x128 ![1] bcast_S128_S1x128_1 (iotaInDim S128 32 0))

/-- The weights: the comparison of the halved row numbers with the column numbers, as floats. -/
def weights : FVec Ideal S256x128 .bf16 :=
  uitofp .bf16 (cmpi .eq (broadcastInDim S256x128 ![0, 1] bcast_S256x1_S256x128_0_1 halves) colIds)

variable (m : (ℓ : Loc nD τ sig) → Buf (Elt Ideal) ℓ)

set_option maxHeartbeats 2000000 in
/-- The array the launch finds in the weights' buffer is that term. -/
theorem V_weights (c : Dev nD) : (V m c main_v8 : S256x128.Idx → EReal) = weights := by
  dsimp only [Gen.V]
  simp only [Gen.hostOps0, Gen.hostOps0_1, Gen.hostOps0_2, List.flatten_cons, List.flatten_nil, List.append_nil, List.cons_append,
    List.nil_append]
  after_results_simp
  rfl

/-- The halved row number at row i is the word of i / 2. -/
theorem halves_apply (i : Fin 256) : halves (ix2 i (0 : Fin 1)) = BitVec.ofNat 32 (i.val / 2) := by
  have hrow : rowIds (ix2 i (0 : Fin 1)) = BitVec.ofNat 32 i.val := by
    unfold rowIds
    rw [broadcastInDim_apply _ _ _ (ix2 i (0 : Fin 1)) (ix1 i) (fun a => by
      match a with
      | ⟨0, _⟩ => show i.val = if (256 : Nat) = 1 then 0 else i.val; rw [if_neg (by decide)])]
    rfl
  unfold halves
  rw [halvesOf_apply, broadcastInDim_scalar_apply, broadcastInDim_scalar_apply, broadcastInDim_scalar_apply,
    broadcastInDim_scalar_apply, hrow]
  exact floorDiv_two i

/-- The column number at column q is the word of q. -/
theorem colIds_apply (i : Fin 256) (q : Fin 128) : colIds (ix2 i q) = BitVec.ofNat 32 q.val := by
  unfold colIds
  rw [broadcastInDim_apply _ _ _ (ix2 i q) (ix2 (0 : Fin 1) q) (fun a => by
      match a with
      | ⟨0, _⟩ => show (0 : Nat) = if (1 : Nat) = 1 then 0 else i.val; rw [if_pos rfl]
      | ⟨1, _⟩ => show q.val = if (128 : Nat) = 1 then 0 else q.val; rw [if_neg (by decide)]),
    broadcastInDim_apply _ _ _ (ix2 (0 : Fin 1) q) (ix1 q) (fun a => by
      match a with
      | ⟨0, _⟩ => show q.val = if (128 : Nat) = 1 then 0 else q.val; rw [if_neg (by decide)])]
  rfl

/-- The weight at (i, q): 1 when i halves to q, 0 otherwise. -/
theorem weights_apply (i : Fin 256) (q : Fin 128) :
    weights (ix2 i q) = if i.val / 2 = q.val then (1 : EReal) else 0 := by
  have e1 : broadcastInDim S256x128 ![0, 1] bcast_S256x1_S256x128_0_1 halves (ix2 i q) = halves (ix2 i (0 : Fin 1)) :=
    broadcastInDim_apply _ _ halves (ix2 i q) (ix2 i (0 : Fin 1)) (fun a => by
      match a with
      | ⟨0, _⟩ => show i.val = if (256 : Nat) = 1 then 0 else i.val; rw [if_neg (by decide)]
      | ⟨1, _⟩ => show (0 : Nat) = if (1 : Nat) = 1 then 0 else q.val; rw [if_pos rfl])
  show FloatOps.uitofp (F := Ideal) .bf16
      (IntOp.cmpi .eq (broadcastInDim S256x128 ![0, 1] bcast_S256x1_S256x128_0_1 halves (ix2 i q)) (colIds (ix2 i q))) = _
  have hi := i.isLt
  have hq := q.isLt
  rw [e1, halves_apply, colIds_apply, cmpi_eq_ofNat _ _ (by omega) (by omega), uitofp_bit]

end Cert.KernelIdeal.Weights

end
-- ==== Proof.PairSum.lean ====
/-
  A sum against weights that select one adjacent pair.

  Let 2N entries be weighted by 1 where the entry's position halves to q and by 0 elsewhere.  A product with 0 is 0
  and a product with 1 is the entry, so the weighted sum is the sum over the positions that halve to q, and those are
  exactly 2q and 2q+1.  Only x * 0 = 0, x * 1 = x and the commutative-monoid laws of addition are used, and the extended
  reals have them at infinite entries too: no finiteness is assumed.
-/
import Idealize.ShloMosaic.PureOps.Ideal.Laws
import Idealize.ShloMosaic.Lib.ValueIdx

namespace Cert.PairSum

open scoped BigOperators

/-- Among 2N positions, those that halve to q are 2q and 2q+1. -/
theorem filter_half {K N : Nat} (h : K = 2 * N) (q : Fin N) :
    (Finset.univ.filter fun i : Fin K => i.val / 2 = q.val)
      = {(⟨2 * q.val, by omega⟩ : Fin K), (⟨2 * q.val + 1, by omega⟩ : Fin K)} := by
  ext i
  simp only [Finset.mem_filter, Finset.mem_univ, true_and, Finset.mem_insert, Finset.mem_singleton, Fin.ext_iff]
  omega

/-- The sum of the entries against the pair weights of q is entry 2q plus entry 2q+1. -/
theorem sum_mul_pairWeight {K N : Nat} (h : K = 2 * N) (f w : Fin K → EReal) (q : Fin N)
    (hw : ∀ i : Fin K, w i = if i.val / 2 = q.val then 1 else 0) :
    ∑ i : Fin K, f i * w i = f ⟨2 * q.val, by omega⟩ + f ⟨2 * q.val + 1, by omega⟩ := by
  have e : ∀ i : Fin K, f i * w i = if i.val / 2 = q.val then f i else 0 := fun i => by
    rw [hw i]
    split
    · exact mul_one _
    · exact mul_zero _
  simp only [e]
  have hne : (⟨2 * q.val, by omega⟩ : Fin K) ≠ ⟨2 * q.val + 1, by omega⟩ := fun hh => by
    have := congrArg Fin.val hh
    simp only at this
    omega
  calc (∑ i : Fin K, if i.val / 2 = q.val then f i else 0)
      = ∑ i ∈ Finset.univ.filter (fun i : Fin K => i.val / 2 = q.val), f i :=
        (Finset.sum_filter (fun i : Fin K => i.val / 2 = q.val) f).symm
    _ = f ⟨2 * q.val, by omega⟩ + f ⟨2 * q.val + 1, by omega⟩ := by
        rw [filter_half h q, Finset.sum_pair hne]

end Cert.PairSum
-- ==== Proof.KernelValue.lean ====
/-
  The kernel's result array is the paired-rows function of the arguments.

  The grid has 32 points; point t stages rows 8192 t … 8192 t + 8191 of the input, the two rows and the weights whole,
  and writes back rows 8192 t … 8192 t + 8191 of the result.  What it writes at (a, q) of its block is the sum over the
  256 columns i of entry (a, i) times weight (i, q); the weight is 1 where i halves to q and 0 elsewhere, so the sum is
  entry (a, 2q) plus entry (a, 2q + 1): the paired-rows function at row 8192 t + a.  The 32 blocks cover every row, so
  the array after the run is that function everywhere.
-/
import proofs.«127237_j489626271944_2_alg».proof.Proof.Gen.KernelIdeal.Value
import proofs.«127237_j489626271944_2_alg».proof.Proof.BlockValue
import proofs.«127237_j489626271944_2_alg».proof.Proof.PairWeights
import proofs.«127237_j489626271944_2_alg».proof.Proof.PairSum
import proofs.«127237_j489626271944_2_alg».proof.Proof.PairedRows

set_option maxRecDepth 16384

noncomputable section

namespace Cert.KernelIdeal.Final

open Cert.KernelIdeal Cert.KernelIdeal.Gen Cert.KernelIdeal.Value Idealize.ShloMosaic Idealize.ShloMosaic.TcCoe Idealize.SL.Sem
open Idealize.ShloMosaic.ValueIdx Cert.PairedRows
open Idealize.ShloMosaic.Pipeline (Dat)

/-- The index maps over the grid: the input's row block moves with the result's, every other block index is 0. -/
theorem idx_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 31 ∧ win0_4.index t (1 : Fin 2) = 0 :=
  (by decide +kernel : ∀ t : Fin grid0.N, _)

/-- Every one of the 32 row blocks of the result is some point's. -/
theorem idx_onto : ∀ b : Fin 32, ∃ t : Fin cfg0.N, win0_4.index t = ![b.val, 0] :=
  (by decide +kernel : ∀ b : Fin 32, ∃ t : Fin grid0.N, win0_4.index t = ![b.val, 0])

/-- One point, over plain arrays: if the staged input block is rows 8192 b … of X, the staged rows are K and C and the
    staged weights select pairs, then the block function at (a, q) is the paired-rows function at (8192 b + a, q). -/
theorem block_eq (X : FVec Ideal ⟨2, ![262144, 256]⟩ .f32) (K C : FVec Ideal ⟨2, ![1, 256]⟩ .f32)
    (x0 : Vec Ideal S8192x256 .f32) (x1 x2 : Vec Ideal S1x256 .f32) (x3 : Vec Ideal S256x128 .bf16)
    (b : Nat) (hb : b ≤ 31)
    (h0 : ∀ (a : Fin 8192) (i : Fin 256), x0 (ix2 a i) = X (ix2 (⟨b * 8192 + a.val, by omega⟩ : Fin 262144) i))
    (h1 : x1 = K) (h2 : x2 = C)
    (h3 : ∀ (i : Fin 256) (q : Fin 128), x3 (ix2 i q) = if i.val / 2 = q.val then (1 : EReal) else 0)
    (a : Fin 8192) (q : Fin 128) :
    Block.blockFn x0 x1 x2 x3 (ix2 a q) = G X K C (ix2 (⟨b * 8192 + a.val, by omega⟩ : Fin 262144) q) := by
  subst h1 h2
  show ∑ i : Fin 256, entry x0 x1 x2 a i * x3 (ix2 i q) = pairAt X x1 x2 ⟨b * 8192 + a.val, by omega⟩ q
  rw [Cert.PairSum.sum_mul_pairWeight (K := 256) (N := 128) rfl (fun i => entry x0 x1 x2 a i) (fun i => x3 (ix2 i q)) q
    (fun i => h3 i q)]
  unfold pairAt entry
  rw [h0, h0]

variable (m : (ℓ : Loc nD τ sig) → Buf (Elt Ideal) ℓ) (ρ : Dev nD → PrngReg)

/-- What point t writes back is block t of the paired-rows function of the arrays as the launch finds them. -/
theorem flushed_eq (c : Dev nD) (t : Fin cfg0.N) :
    (dats m 0 c).flushed 4 t
      = ((cfg0.win 4).blk t).view.read (Elt Ideal) (G (V m c main_arg0) (V m c main_arg1) (V m c main_arg2)) := by
  rw [flushed4_A]
  refine (congrArg ((cfg0.win 4).cut (grid0.coords t))
    (Block.out_eq c (grid0.coords t) (ms0_0 t) (hs0_0 t) (ms0_1 t) (hs0_1 t) (ms0_2 t) (hs0_2 t) (ms0_3 t) (hs0_3 t)
      (ms0_4 t) (hs0_4 t) (iblk m c 0 t) (iblk m c 1 t) (iblk m c 2 t) (iblk m c 3 t))).trans ?_
  obtain ⟨e00, e01, e10, e11, e20, e21, e30, e31, e4le, e41⟩ := idx_facts t
  funext j
  obtain ⟨a, q, rfl⟩ : ∃ (a : Fin 8192) (q : Fin 128), j = ix2 a q := ⟨j 0, j 1, eq_ix2 j⟩
  have ha := a.isLt
  have hq := q.isLt
  show Block.blockFn (iblk m c 0 t) (iblk m c 1 t) (iblk m c 2 t) (iblk m c 3 t) (ix2 a q)
      = G (V m c main_arg0) (V m c main_arg1) (V m c main_arg2) (((cfg0.win 4).blk t).view.emb (ix2 a q))
  refine (block_eq (V m c main_arg0) (V m c main_arg1) (V m c main_arg2) (iblk m c 0 t) (iblk m c 1 t) (iblk m c 2 t)
    (iblk m c 3 t) (win0_4.index t (0 : Fin 2)) e4le ?_ ?_ ?_ ?_ a q).trans ?_
  · intro a' i
    have ha' := a'.isLt
    show V m c main_arg0 (((cfg0.win 0).blk t).view.emb (ix2 a' i)) = _
    refine congrArg (V m c main_arg0) (funext fun d => Fin.ext ?_)
    match d with
    | ⟨0, _⟩ => show win0_0.index t (0 : Fin 2) * 8192 + 1 * a'.val = win0_4.index t (0 : Fin 2) * 8192 + a'.val; omega
    | ⟨1, _⟩ => show win0_0.index t (1 : Fin 2) * 256 + 1 * i.val = i.val; omega
  · funext y
    show V m c main_arg1 (((cfg0.win 1).blk t).view.emb y) = V m c main_arg1 y
    refine congrArg (V m c main_arg1) (funext fun d => Fin.ext ?_)
    match d with
    | ⟨0, _⟩ => show win0_1.index t (0 : Fin 2) * 1 + 1 * (y 0).val = (y 0).val; omega
    | ⟨1, _⟩ => show win0_1.index t (1 : Fin 2) * 256 + 1 * (y 1).val = (y 1).val; omega
  · funext y
    show V m c main_arg2 (((cfg0.win 2).blk t).view.emb y) = V m c main_arg2 y
    refine congrArg (V m c main_arg2) (funext fun d => Fin.ext ?_)
    match d with
    | ⟨0, _⟩ => show win0_2.index t (0 : Fin 2) * 1 + 1 * (y 0).val = (y 0).val; omega
    | ⟨1, _⟩ => show win0_2.index t (1 : Fin 2) * 256 + 1 * (y 1).val = (y 1).val; omega
  · intro i q'
    show V m c main_v8 (((cfg0.win 3).blk t).view.emb (ix2 i q')) = _
    have e : ((cfg0.win 3).blk t).view.emb (ix2 i q') = ix2 i q' := funext fun d => Fin.ext (by
      match d with
      | ⟨0, _⟩ => show win0_3.index t (0 : Fin 2) * 256 + 1 * i.val = i.val; omega
      | ⟨1, _⟩ => show win0_3.index t (1 : Fin 2) * 128 + 1 * q'.val = q'.val; omega)
    rw [e]
    exact (congrFun (Weights.V_weights m c) (ix2 i q')).trans (Weights.weights_apply i q')
  · refine congrArg (G (V m c main_arg0) (V m c main_arg1) (V m c main_arg2)) (funext fun d => Fin.ext ?_)
    match d with
    | ⟨0, _⟩ => show win0_4.index t (0 : Fin 2) * 8192 + a.val = win0_4.index t (0 : Fin 2) * 8192 + 1 * a.val; omega
    | ⟨1, _⟩ => show q.val = win0_4.index t (1 : Fin 2) * 128 + 1 * q.val; omega

/-- An index of the result is in point t's block iff each coordinate is in the block's range on its axis. -/
theorem mem_blk (t : Fin cfg0.N) (i : S262144x128.Idx) :
    i ∈ ((cfg0.win 4).blk t).view.set ↔ ∀ d : Fin 2, win0_4.index t d * S8192x128.size d ≤ (i d).val
      ∧ (i d).val < win0_4.index t d * S8192x128.size d + S8192x128.size d := by
  show i ∈ ((View.whole main_v9).slice (win0_4.rect t)).set ↔ _
  rw [View.set_slice_whole, Rect.mem_set_unit]
  exact Iff.rfl

/-- Every index of the result is in the block of the point that handles its rows. -/
theorem cover (i : S262144x128.Idx) :
    ∃ t : Fin cfg0.N, (cfg0.win 4).flush t = true ∧ i ∈ ((cfg0.win 4).blk t).view.set := by
  have hi0 : (i 0).val < 262144 := (i 0).isLt
  have hi1 : (i 1).val < 128 := (i 1).isLt
  obtain ⟨t, ht⟩ := idx_onto ⟨(i 0).val / 8192, by omega⟩
  have q0 : win0_4.index t (0 : Fin 2) = (i 0).val / 8192 := congrFun ht 0
  have q1 : win0_4.index t (1 : Fin 2) = 0 := congrFun ht 1
  refine ⟨t, flush0_4 t, ?_⟩
  rw [mem_blk]
  intro d
  match d with
  | ⟨0, _⟩ =>
    show win0_4.index t (0 : Fin 2) * 8192 ≤ (i 0).val ∧ (i 0).val < win0_4.index t (0 : Fin 2) * 8192 + 8192
    omega
  | ⟨1, _⟩ =>
    show win0_4.index t (1 : Fin 2) * 128 ≤ (i 1).val ∧ (i 1).val < win0_4.index t (1 : Fin 2) * 128 + 128
    omega

/-- The result array after the run: the paired-rows function of the arguments as launched. -/
theorem final (c : Dev nD) :
    (dats m 0 c).arrAt 4 cfg0.N
      = G (m ((c : Thread nD τ).loc main_arg0)) (m ((c : Thread nD τ).loc main_arg1)) (m ((c : Thread nD τ).loc main_arg2)) := by
  have h := (dats m 0 c).arrAt_eq_of_cover 4 (G (V m c main_arg0) (V m c main_arg1) (V m c main_arg2))
    (fun t _ => flushed_eq m c t) cover
  rw [V_main_arg0, V_main_arg1, V_main_arg2] at h
  exact h

/-- The kernel's run re-posted: the result at the paired-rows function of the arguments, the arguments unchanged. -/
theorem run : θ_run defs (onTc (τ := τ) (main (F := Ideal))) ⟨m, fun _ => 0, ρ⟩ fun r => ∀ c : Dev nD,
      r.2.mem ((c : Thread nD τ).loc main_v9)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Final

end
-- ==== Proof.RefRun.lean ====
/-
  The reference as a straight line of host operations, and its run.

  The reference multiplies the input by a row of gains, applies the leaky rectifier (the product where it is at
  least zero, the slope times the product elsewhere), adds the input times a second row, views the 256 columns as
  128 adjacent pairs and sums each pair.  The rectifier is a function of the module called once, and it calls the
  selection in turn; a call executes the callee's operations on the call's own buffers, so the whole program is one
  list of sixteen operations.  Every weakly fair execution therefore terminates with the result buffer at the
  operations' composed term of the three arguments, and leaves the arguments as they were.
-/
import proofs.«127237_j489626271944_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The sixteen operations in order: the gain row broadcast and the product; the slope; the rectifier's seven
    (zero, its broadcast, the comparison, the slope passed through, its broadcast, the scaled product, the selection);
    the second row broadcast, its product, the sum; the view as pairs, the zero the pair sums start from, the pair sums. -/
abbrev ops : List (HloOp τ sig (Elt F)) :=
  [ unary main_arg1 main_v0 (broadcastInDim S262144x256 ![0, 1] bcast_S1x256_S262144x256_0_1 : (⟨S1x256, .f32⟩ : BufTy).Contents (Elt F) → (⟨S262144x256, .f32⟩ : BufTy).Contents (Elt F)),
    binary main_arg0 main_v0 main_v1 (mulf : (⟨S262144x256, .f32⟩ : BufTy).Contents (Elt F) → (⟨S262144x256, .f32⟩ : BufTy).Contents (Elt F) → (⟨S262144x256, .f32⟩ : BufTy).Contents (Elt F)),
    nullary main_cst (constant S_ .f32 0x3C23D70A#32),
    TRef.nullary main_call0.cst (constant S_ .f32 0x00000000#32),
    TRef.unary main_call0.cst main_call0.v0 (broadcastInDim S262144x256 ![] bcast_S_S262144x256),
    TRef.binary (.of main_v1) main_call0.v0 main_call0.v1 (cmpf .oge),
    TRef.unary (.of main_cst) main_call0.v2 id,
    TRef.unary main_call0.v2 main_call0.v3 (broadcastInDim S262144x256 ![] bcast_S_S262144x256),
    TRef.binary main_call0.v3 (.of main_v1) main_call0.v4 mulf,
    TRef.ternary main_call0.v1 (.of main_v1) main_call0.v4 main_call0.call0.v0 select,
    unary main_arg2 main_v3 (broadcastInDim S262144x256 ![0, 1] bcast_S1x256_S262144x256_0_1 : (⟨S1x256, .f32⟩ : BufTy).Contents (Elt F) → (⟨S262144x256, .f32⟩ : BufTy).Contents (Elt F)),
    binary main_arg0 main_v3 main_v4 (mulf : (⟨S262144x256, .f32⟩ : BufTy).Contents (Elt F) → (⟨S262144x256, .f32⟩ : BufTy).Contents (Elt F) → (⟨S262144x256, .f32⟩ : BufTy).Contents (Elt F)),
    binary main_v2 main_v4 main_v5 (addf : (⟨S262144x256, .f32⟩ : BufTy).Contents (Elt F) → (⟨S262144x256, .f32⟩ : BufTy).Contents (Elt F) → (⟨S262144x256, .f32⟩ : BufTy).Contents (Elt F)),
    reshape main_v5 main_v6 rfl shapeCasts_S262144x256_S262144x128x2,
    nullary main_cst_0 (constant S_ .f32 0x00000000#32),
    binary main_v6 main_cst_0 main_v7 ((fun x v => Host.reduceAdd x v reducesTo_S262144x128x2_S262144x128_d2 h_S_) : (⟨S262144x128x2, .f32⟩ : BufTy).Contents (Elt F) → (⟨S_, .f32⟩ : BufTy).Contents (Elt F) → (⟨S262144x128, .f32⟩ : BufTy).Contents (Elt F)) ]

/-- The program is that straight line: the two functions unfolded at their calls, sequencing reassociated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., nullary_bufs_sub .., nullary_bufs_sub .., unary_bufs_sub .., binary_bufs_sub ..,
    unary_bufs_sub .., unary_bufs_sub .., binary_bufs_sub .., ternary_bufs_sub .., unary_bufs_sub .., binary_bufs_sub ..,
    binary_bufs_sub .., reshape_bufs_sub .., nullary_bufs_sub .., binary_bufs_sub ..⟩

/-- What the result buffer ends holding, as one term of the three argument arrays: the pair sums, started from
    zero, of the rectified product plus the second product, viewed as 128 pairs per row. -/
def result (x : (⟨S262144x256, .f32⟩ : BufTy).Contents (Elt F)) (k c : (⟨S1x256, .f32⟩ : BufTy).Contents (Elt F)) :
    (⟨S262144x128, .f32⟩ : BufTy).Contents (Elt F) :=
  Host.reduceAdd
    (shapeCast S262144x128x2
      (addf
        (select
          (cmpf .oge (mulf x (broadcastInDim S262144x256 ![0, 1] bcast_S1x256_S262144x256_0_1 k))
            (broadcastInDim S262144x256 ![] bcast_S_S262144x256 (constant (F := F) S_ .f32 0x00000000#32)))
          (mulf x (broadcastInDim S262144x256 ![0, 1] bcast_S1x256_S262144x256_0_1 k))
          (mulf (broadcastInDim S262144x256 ![] bcast_S_S262144x256 (constant (F := F) S_ .f32 0x3C23D70A#32))
            (mulf x (broadcastInDim S262144x256 ![0, 1] bcast_S1x256_S262144x256_0_1 k))))
        (mulf x (broadcastInDim S262144x256 ![0, 1] bcast_S1x256_S262144x256_0_1 c)))
      shapeCasts_S262144x256_S262144x128x2)
    (constant (F := F) S_ .f32 0x00000000#32) reducesTo_S262144x128x2_S262144x128_d2 h_S_

/-- On every device, for any float values, from any memory with zero counters: every weakly fair execution of the
    reference terminates with the result at `result` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v7).trans (by after_results; rfl),
      (h c main_arg0).trans (by after_results),
      (h c main_arg1).trans (by after_results),
      (h c main_arg2).trans (by after_results)⟩)
    (run_seq scopedRefs_eq scopedSems_eq defs main (fun _ => ops) main_eq (fun _ => ops_sub) m ρ)

end Cert.ReferenceIdeal.HandRun

end
-- ==== Proof.RefValue.lean ====
/-
  The reference's result is the paired-rows function.

  At (r, q) the host's sum over the last axis of the [262144, 128, 2] view, started from zero, is zero plus the view at
  (r, q, 0) plus the view at (r, q, 1); the view at (r, q, e) is the [262144, 256] array at (r, 2q + e), since both
  positions are 256 r + 2 q + e in row-major order; and the array at (r, i) is entry (r, i): the row broadcasts read
  the rows at column i, the scalar broadcasts read the zero and the slope, and the reference's slope-times-product is
  the product-times-slope by commutativity of multiplication on the extended reals.
-/
import proofs.«127237_j489626271944_2_alg».proof.Proof.RefRun
import proofs.«127237_j489626271944_2_alg».proof.Proof.PairedRows
import Idealize.ShloMosaic.Lib.IdealHost
import Idealize.ShloMosaic.Lib.Pipeline.Value

noncomputable section

namespace Cert.ReferenceIdeal.RefValue

open Cert.ReferenceIdeal Cert.ReferenceIdeal.Gen Idealize.ShloMosaic Idealize.ShloMosaic.ValueIdx Cert.PairedRows

/-- A [1, 256] row laid along every one of the 262144 rows reads, at (r, i), the row at column i. -/
theorem row_apply (v : FVec Ideal S1x256 .f32) (r : Fin 262144) (i : Fin 256) :
    broadcastInDim S262144x256 ![0, 1] bcast_S1x256_S262144x256_0_1 v (ix2 r i) = v (ix2 (0 : Fin 1) i) :=
  broadcastInDim_apply _ _ v (ix2 r i) (ix2 (0 : Fin 1) i) (fun a => by
    match a with
    | ⟨0, _⟩ => show (0 : Nat) = if (1 : Nat) = 1 then 0 else r.val; rw [if_pos rfl]
    | ⟨1, _⟩ => show i.val = if (256 : Nat) = 1 then 0 else i.val; rw [if_neg (by decide)])

/-- The pointwise operations of the reference, at one index. -/
theorem pointwise_apply (x bk bc bz bs : FVec Ideal S262144x256 .f32) (j : S262144x256.Idx) :
    addf (select (cmpf .oge (mulf x bk) bz) (mulf x bk) (mulf bs (mulf x bk))) (mulf x bc) j
      = Scalar.select (Ideal.cmp .oge (x j * bk j) (bz j)) (x j * bk j) (bs j * (x j * bk j)) + x j * bc j := rfl

/-- The array the reference views as pairs, at (r, i): entry (r, i). -/
theorem values_apply (x : FVec Ideal S262144x256 .f32) (k c : FVec Ideal S1x256 .f32) (r : Fin 262144) (i : Fin 256) :
    addf
      (select
        (cmpf .oge (mulf x (broadcastInDim S262144x256 ![0, 1] bcast_S1x256_S262144x256_0_1 k))
          (broadcastInDim S262144x256 ![] bcast_S_S262144x256 (constant (F := Ideal) S_ .f32 0x00000000#32)))
        (mulf x (broadcastInDim S262144x256 ![0, 1] bcast_S1x256_S262144x256_0_1 k))
        (mulf (broadcastInDim S262144x256 ![] bcast_S_S262144x256 (constant (F := Ideal) S_ .f32 0x3C23D70A#32))
          (mulf x (broadcastInDim S262144x256 ![0, 1] bcast_S1x256_S262144x256_0_1 k))))
      (mulf x (broadcastInDim S262144x256 ![0, 1] bcast_S1x256_S262144x256_0_1 c)) (ix2 r i)
      = entry x k c r i := by
  rw [pointwise_apply, row_apply k, row_apply c, broadcastInDim_scalar_apply, broadcastInDim_scalar_apply,
    mul_comm (constant (F := Ideal) S_ .f32 0x3C23D70A#32 ix0)]
  rfl

/-- The index the sum over the last axis reads at (r, q) and position e of the pair. -/
theorem lift_pair (h : S262144x128x2.Reduces [2] S262144x128) (r : Fin 262144) (q : Fin 128) (e : Fin 2) :
    h.lift (ix2 r q) e = ix3 r q e :=
  funext fun a => Fin.ext (by
    show h.liftVal (ix2 r q) e.val a = (ix3 r q e a).val
    unfold Shape.Reduces.liftVal
    match a with
    | ⟨0, _⟩ => rfl
    | ⟨1, _⟩ => rfl
    | ⟨2, _⟩ => rfl)

/-- The view as pairs, at (r, q, e): the array at (r, 2q + e). -/
theorem pairs_apply (y : FVec Ideal S262144x256 .f32) (r : Fin 262144) (q : Fin 128) (e : Fin 2) (i : Fin 256)
    (hi : i.val = 2 * q.val + e.val) :
    shapeCast S262144x128x2 y shapeCasts_S262144x256_S262144x128x2 (ix3 r q e) = y (ix2 r i) :=
  shapeCast_apply y _ _ _ (by
    rw [Shape.rowMajor_val_two, Shape.rowMajor_val_three]
    show r.val * 256 + i.val = (r.val * 128 + q.val) * 2 + e.val
    omega)

/-- The reference's composed term is the paired-rows function of the arguments. -/
theorem result_eq (x : FVec Ideal S262144x256 .f32) (k c : FVec Ideal S1x256 .f32) :
    HandRun.result (F := Ideal) x k c = G x k c := by
  funext j
  obtain ⟨r, q, rfl⟩ : ∃ (r : Fin 262144) (q : Fin 128), j = ix2 r q := ⟨j 0, j 1, eq_ix2 j⟩
  have hred : S262144x128x2.Reduces [2] S262144x128 := by decide
  have hsum : ∀ f : Fin (S262144x128x2.size 2) → EReal, ∑ e, f e = f (0 : Fin 2) + f (1 : Fin 2) :=
    fun f => Fin.sum_univ_two f
  unfold HandRun.result
  rw [hostReduceAdd_apply, Ideal.hostReduceAdd_single _ hred, constant_apply, Ideal.ofBits_zero_f32, zero_add, hsum,
    lift_pair hred r q 0, lift_pair hred r q 1,
    pairs_apply _ r q 0 ⟨2 * q.val, by omega⟩ rfl, pairs_apply _ r q 1 ⟨2 * q.val + 1, by omega⟩ rfl,
    values_apply, values_apply]
  rfl

end Cert.ReferenceIdeal.RefValue

end
-- ==== Proof.lean ====
/-
  A kernel that sums adjacent pairs of columns by a 0/1 matrix product, against the reference that sums them directly.

  Both programs form, for an input x of 262144 rows and 256 columns and two rows k and c, the entries
  rectifier(x * k) + x * c, with the leaky rectifier z ↦ z where z is at least zero and slope * z elsewhere, and reduce
  the 256 columns to 128 by adding columns 2q and 2q + 1.  The reference views each row as 128 pairs and sums each
  pair from zero.  The kernel multiplies the entries, 2048 rows at a time, by a [256, 128] matrix its own program
  builds before the launch, whose entry (i, q) is 1 when i halves to q and 0 otherwise.

  On the extended reals the two results are equal entry by entry: a change of float format is the identity; a matrix
  product into a zero accumulator is the sum of the products; a product with 0 is 0 and with 1 is the other factor
  (at infinite entries too), so the sum keeps exactly the two entries of one pair; the reference's slope-times-product
  is the kernel's product-times-slope by commutativity; and the slope and the zero are the same binary words on both
  sides.  No finiteness of the inputs is used.

  The three frames are the generated frame runs of the two kernel programs and the reference's run with its result
  dropped.  The idealization rewrote no operation, so that it preserves the kernel asks nothing.  The equality of results
  sets the kernel's run (the result array as the paired-rows function of the arguments) beside the reference's run (its
  composed term, equal to the same function).
-/
import proofs.«127237_j489626271944_2_alg».proof.Defs
import proofs.«127237_j489626271944_2_alg».proof.Proof.Gen.Kernel
import proofs.«127237_j489626271944_2_alg».proof.Proof.Gen.Kernel.Frame
import proofs.«127237_j489626271944_2_alg».proof.Proof.Gen.KernelIdeal
import proofs.«127237_j489626271944_2_alg».proof.Proof.Gen.KernelIdeal.Frame
import proofs.«127237_j489626271944_2_alg».proof.Proof.Gen.KernelIdeal.Value
import proofs.«127237_j489626271944_2_alg».proof.Proof.Gen.ReferenceIdeal
import proofs.«127237_j489626271944_2_alg».proof.Proof.Gen.Pre_finite_inputs
import proofs.«127237_j489626271944_2_alg».proof.Proof.KernelValue
import proofs.«127237_j489626271944_2_alg».proof.Proof.RefRun
import proofs.«127237_j489626271944_2_alg».proof.Proof.RefValue

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.HandRun.run (F := Ideal) m ρ)

/-- The idealization rewrote nothing. -/
theorem preserves : Cert.preserves_Kernel_KernelIdeal := trivial

/-- From memories that agree on the arguments both programs end with the paired-rows function of the arguments. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2.1, (hagree c).2.2]
  exact Cert.ReferenceIdeal.RefValue.result_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
